-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S64x1024x1 : Shape := ⟨3, ![64, 1024, 1]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel
  bcast_S_S64x1024x1 : S_.BroadcastsInDim S64x1024x1 (![] : Fin 0 → Fin S64x1024x1.rank)
  reducesTo_S64x1024x1_S_d0_1_2 : S64x1024x1.ReducesTo [0, 1, 2] S_

variable [Facts]

def fn {F : FTy → Type} [FloatOps F] (main_arg0 : FVec F S64x1024x1024 .f32) (main_arg1 : FVec F S64x1024x1 .f32) (main_arg2 : FVec F S64x1024x1 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  let main_v4 : FVec F S64x1024x1 .f32 := Host.absf main_arg1
  let main_cst_0 : FVec F S_ .f32 := constant S_ .f32 0x7F800000#32
  let main_v5 : FVec F S64x1024x1 .f32 := broadcastInDim S64x1024x1 ![] bcast_S_S64x1024x1 main_cst_0
  let main_v6 : IVec S64x1024x1 1 := cmpf .olt main_v4 main_v5
  let main_c_1 : IVec S_ 1 := constantI S_ 1 1#1
  let main_v7 : IVec S_ 1 := (fun x v => Host.reduce IntOp.andi x v reducesTo_S64x1024x1_S_d0_1_2 h_S_) main_v6 main_c_1
  let main_v8 : IVec S_ 1 := andi main_v3 main_v7
  let main_v9 : FVec F S64x1024x1 .f32 := Host.absf main_arg2
  let main_cst_2 : FVec F S_ .f32 := constant S_ .f32 0x7F800000#32
  let main_v10 : FVec F S64x1024x1 .f32 := broadcastInDim S64x1024x1 ![] bcast_S_S64x1024x1 main_cst_2
  let main_v11 : IVec S64x1024x1 1 := cmpf .olt main_v9 main_v10
  let main_c_3 : IVec S_ 1 := constantI S_ 1 1#1
  let main_v12 : IVec S_ 1 := (fun x v => Host.reduce IntOp.andi x v reducesTo_S64x1024x1_S_d0_1_2 h_S_) main_v11 main_c_3
  let main_v13 : IVec S_ 1 := andi main_v8 main_v12
  main_v13
-- ==== Kernel.lean ====
abbrev S64x1024x1024 : Shape := ⟨3, ![64, 1024, 1024]⟩
abbrev S64x1024x1 : Shape := ⟨3, ![64, 1024, 1]⟩
abbrev S64x1x1024 : Shape := ⟨3, ![64, 1, 1024]⟩
abbrev S1x1024x1024 : Shape := ⟨3, ![1, 1024, 1024]⟩
abbrev S1x1024x1 : Shape := ⟨3, ![1, 1024, 1]⟩
abbrev S1x1x1024 : Shape := ⟨3, ![1, 1, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S64x1024x1024, .f32⟩
  | .hbm, ⟨1, _⟩ => ⟨S64x1024x1, .f32⟩
  | .hbm, ⟨2, _⟩ => ⟨S64x1024x1, .f32⟩
  | .hbm, ⟨3, _⟩ => ⟨S64x1x1024, .f32⟩
  | .hbm, ⟨4, _⟩ => ⟨S64x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1, .f32⟩
  | .local _ .vmem, ⟨3, _⟩ => ⟨S1x1024x1, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x1024x1_S64x1x1024_0_2_1 : S64x1024x1.Transposes [0, 2, 1] S64x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S64x1024x1.size a
  hwx0_1 : ∀ i : grid0.Coords, EltTy.bits .f32 = 32 ∨ (Rect.block (s := S64x1024x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S64x1024x1.size a
  hwx0_2 : ∀ i : grid0.Coords, EltTy.bits .f32 = 32 ∨ (Rect.block (s := S64x1024x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S64x1x1024.size a
  hwx0_3 : ∀ i : grid0.Coords, EltTy.bits .f32 = 32 ∨ (Rect.block (s := S64x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S64x1024x1024.size a
  hwx0_4 : ∀ i : grid0.Coords, EltTy.bits .f32 = 32 ∨ (Rect.block (s := S64x1024x1024) S1x1024x1024.size (cc0_transform_4 i) (hinb0_4 i)).WholeWords (EltTy.packing .f32)

variable [Facts₀]

def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S64x1024x1 : Shape := ⟨3, ![64, 1024, 1]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x1024x1, .f32⟩
  | .hbm, ⟨2, _⟩ => ⟨S64x1024x1, .f32⟩
  | .hbm, ⟨3, _⟩ => ⟨S64x1024x1, .f32⟩
  | .hbm, ⟨4, _⟩ => ⟨S_, .f32⟩
  | .hbm, ⟨5, _⟩ => ⟨S64x1024x1, .f32⟩
  | .hbm, ⟨6, _⟩ => ⟨S64x1024x1, .f32⟩
  | .hbm, ⟨7, _⟩ => ⟨S64x1024x1, .f32⟩
  | .hbm, ⟨8, _⟩ => ⟨S64x1024x1024, .f32⟩
  | .hbm, ⟨9, _⟩ => ⟨S64x1024x1024, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S64x1024x1 : S_.BroadcastsInDim S64x1024x1 (![] : Fin 0 → Fin S64x1024x1.rank)
  dot_S64x1024x1024_S64x1024x1_S64x1024x1_2_1_1_2_0_0_wf : DotDims.WF S64x1024x1024 S64x1024x1 S64x1024x1 [2] [1] [1] [2] [0] [0]
  dot_S64x1024x1_S64x1024x1_S64x1024x1024_2_2_1_1_0_0_wf : DotDims.WF S64x1024x1 S64x1024x1 S64x1024x1024 [2] [2] [1] [1] [0] [0]

variable [Facts₀]

def dot_S64x1024x1024_S64x1024x1_S64x1024x1_2_1_1_2_0_0 : DotDims S64x1024x1024 S64x1024x1 S64x1024x1 where
  lhsContracting := [2]
  rhsContracting := [1]
  lhsNonContracting := [1]
  rhsNonContracting := [2]
  lhsBatch := [0]
  rhsBatch := [0]
  wf := dot_S64x1024x1024_S64x1024x1_S64x1024x1_2_1_1_2_0_0_wf
def dot_S64x1024x1_S64x1024x1_S64x1024x1024_2_2_1_1_0_0 : DotDims S64x1024x1 S64x1024x1 S64x1024x1024 where
  lhsContracting := [2]
  rhsContracting := [2]
  lhsNonContracting := [1]
  rhsNonContracting := [1]
  lhsBatch := [0]
  rhsBatch := [0]
  wf := dot_S64x1024x1_S64x1024x1_S64x1024x1024_2_2_1_1_0_0_wf

class Facts : Prop extends Facts₀ where

variable [Facts]
-- ==== Proof.Spec.lean ====
/-
  The result both programs compute, as ONE function of the three argument arrays, index by index, on the
  extended reals. For batch `b`, row `r` and column `q`

      upd W x g (b, r, q) = W(b, r, q) − ( Σ_k W(b, r, k) · x(b, k, 0)  +  rate · g(b, r, 0) ) · x(b, q, 0)

  — the weight `W(b, r, q)` less the rank-one correction whose row factor is row `r` of `W_b` against the column
  vector `x_b`, shifted by `rate` times the loss gradient's entry `r`, and whose column factor is entry `q` of
  `x_b`. `rate` is the f32 word `0x3C23D70A` read as its exact binary value; both programs spell the same word, so
  it is never evaluated.
-/
import Idealize.ShloMosaic.PureOps.Ideal
import Idealize.ShloMosaic.Lib.ValueIdx

noncomputable section

namespace Cert.WeightUpdate

open Idealize.ShloMosaic Idealize.ShloMosaic.ValueIdx

/-- The learning rate: the word `0x3C23D70A` at its exact binary value. -/
abbrev rate : Ideal .f32 := Ideal.ofBits .f32 0x3C23D70A#32

/-- Row `r` of batch `b`'s matrix against batch `b`'s column vector: `Σ_k W(b, r, k) · x(b, k, 0)`. -/
def rowDot (W : FVec Ideal ⟨3, ![64, 1024, 1024]⟩ .f32) (x : FVec Ideal ⟨3, ![64, 1024, 1]⟩ .f32)
    (b : Fin 64) (r : Fin 1024) : Ideal .f32 :=
  ∑ k : Fin 1024, W (ix3 b r k) * x (ix3 b k (0 : Fin 1))

/-- The updated weights, entry by entry. -/
def upd (W : FVec Ideal ⟨3, ![64, 1024, 1024]⟩ .f32) (x g : FVec Ideal ⟨3, ![64, 1024, 1]⟩ .f32) :
    FVec Ideal ⟨3, ![64, 1024, 1024]⟩ .f32 := fun i =>
  W i - (rowDot W x (i 0) (i 1) + rate * g (ix3 (i 0) (i 1) (0 : Fin 1))) * x (ix3 (i 0) (i 2) (0 : Fin 1))

end Cert.WeightUpdate

end
-- ==== Proof.RefIsSpec.lean ====
/-
  The reference's last stage is `upd`. Read one operation at a time: the result at `(b, r, q)` is `W(b, r, q)` less a
  contraction over an axis of extent ONE — a sum with a single term, the product of the third stage at `(b, r, 0)`
  and `x(b, q, 0)`; the third stage at `(b, r, 0)` is the first contraction, `Σ_k W(b, r, k) · x(b, k, 0)`, plus the
  broadcast rate times `g(b, r, 0)`. The only facts used are the one-term sum and four equations between index
  functions, each by coordinates.
-/
import proofs.«171487_j14035953124009_1_alg».proof.Proof.Gen.ReferenceIdeal.Read
import proofs.«171487_j14035953124009_1_alg».proof.Proof.Spec

noncomputable section

namespace Cert.WeightUpdate.Reference

open Idealize.ShloMosaic Idealize.ShloMosaic.ValueIdx
open Cert.ReferenceIdeal Cert.ReferenceIdeal.Read Cert.WeightUpdate

/-- The reference's result as a function of its three arguments is the updated weights. -/
theorem stage_eq_upd (W : (⟨S64x1024x1024, .f32⟩ : BufTy).Contents (Elt Ideal))
    (x g : (⟨S64x1024x1, .f32⟩ : BufTy).Contents (Elt Ideal)) :
    val_main_v5 (F := Ideal) W x g = upd W x g := by
  funext i
  -- the index by its coordinates: batch b, row r, column q
  obtain ⟨b, r, q, rfl⟩ : ∃ (b : Fin 64) (r q : Fin 1024), i = ix3 b r q := ⟨i 0, i 1, i 2, eq_ix3 i⟩
  -- the one-term contraction reads the third stage at (b, r, 0) and x at (b, q, 0)
  have el4 : lidx_main_v4 (ix3 b r q) (0 : Fin 1) = (ix3 b r (0 : Fin 1) : S64x1024x1.Idx) :=
    funext fun a => Fin.ext (by match a with | ⟨0, _⟩ => rfl | ⟨1, _⟩ => rfl | ⟨2, _⟩ => rfl)
  have er4 : ridx_main_v4 (ix3 b r q) (0 : Fin 1) = (ix3 b q (0 : Fin 1) : S64x1024x1.Idx) :=
    funext fun a => Fin.ext (by match a with | ⟨0, _⟩ => rfl | ⟨1, _⟩ => rfl | ⟨2, _⟩ => rfl)
  -- the long contraction at (b, r, 0) reads W at (b, r, k) and x at (b, k, 0)
  have el0 : ∀ k : Fin 1024, lidx_main_v0 (ix3 b r (0 : Fin 1) : S64x1024x1.Idx) k = (ix3 b r k : S64x1024x1024.Idx) := fun k =>
    funext fun a => Fin.ext (by match a with | ⟨0, _⟩ => rfl | ⟨1, _⟩ => rfl | ⟨2, _⟩ => rfl)
  have er0 : ∀ k : Fin 1024, ridx_main_v0 (ix3 b r (0 : Fin 1) : S64x1024x1.Idx) k = (ix3 b k (0 : Fin 1) : S64x1024x1.Idx) := fun k =>
    funext fun a => Fin.ext (by match a with | ⟨0, _⟩ => rfl | ⟨1, _⟩ => rfl | ⟨2, _⟩ => rfl)
  rw [val_main_v5_apply, val_main_v4_apply, Fin.sum_univ_one, el4, er4, val_main_v3_apply, val_main_v0_apply,
    val_main_v2_apply, val_main_v1_apply, val_main_cst_apply]
  simp only [el0, er0]
  rfl

end Cert.WeightUpdate.Reference

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.Payload.lean ====
/-
  The kernel body's one stored value, read at an index, on the extended reals. The body loads the point's four blocks
  — a `[1, 1024, 1024]` slab `w` of the weights, the `[1, 1024, 1]` columns `x` and `g`, and the `[1, 1, 1024]`
  row `xt` — and stores, at `(0, p, q)`,

      w(0, p, q) − ( Σ_k w(0, p, k) · x(0, k, 0)  +  rate · g(0, p, 0) ) · xt(0, 0, q).

  The matrix product into a zero accumulator is the plain sum over its one contracted axis (the narrowing to bf16 in
  front of it is the identity on extended reals); the sum's column `[1024, 1]` is broadcast along the rows and the row
  `[1, 1024]` down the columns, so their product at `(p, q)` is the column's entry `p` times the row's entry `q`.
-/
import proofs.«171487_j14035953124009_1_alg».proof.Proof.Gen.KernelIdeal.Skeleton
import proofs.«171487_j14035953124009_1_alg».proof.Proof.Spec
import proofs.«171487_j14035953124009_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.WeightUpdate.Body

open Idealize.ShloMosaic Idealize.ShloMosaic.ValueIdx
open Cert.KernelIdeal Cert.KernelIdeal.Gen Cert.WeightUpdate Cert.WeightUpdate.Layout

/-! ## The matrix–vector product's operand indices -/

/-- The left operand's row is the result's row. -/
theorem lhs_row (j : S1024x1.Idx) (k : dot_S1024x1024_S1024x1_S1024x1_1_0_0_1_n_n.contr.Idx) :
    (dot_S1024x1024_S1024x1_S1024x1_1_0_0_1_n_n.lhsIdx j k 0).val = (j 0).val := by
  unfold DotDims.lhsIdx
  rw [dif_neg (show ¬(0 : Fin S1024x1024.rank) ∈ dot_S1024x1024_S1024x1_S1024x1_1_0_0_1_n_n.lhsBatch by decide),
    dif_pos (show (0 : Fin S1024x1024.rank) ∈ dot_S1024x1024_S1024x1_S1024x1_1_0_0_1_n_n.lhsNonContracting by decide)]
  rfl
/-- The left operand's column is the contracted coordinate. -/
theorem lhs_col (j : S1024x1.Idx) (k : dot_S1024x1024_S1024x1_S1024x1_1_0_0_1_n_n.contr.Idx) :
    (dot_S1024x1024_S1024x1_S1024x1_1_0_0_1_n_n.lhsIdx j k 1).val = (k ⟨0, by decide⟩).val :=
  dot_S1024x1024_S1024x1_S1024x1_1_0_0_1_n_n.lhsIdx_val_of_single rfl j k
/-- The right operand's row is the contracted coordinate. -/
theorem rhs_row (j : S1024x1.Idx) (k : dot_S1024x1024_S1024x1_S1024x1_1_0_0_1_n_n.contr.Idx) :
    (dot_S1024x1024_S1024x1_S1024x1_1_0_0_1_n_n.rhsIdx j k 0).val = (k ⟨0, by decide⟩).val :=
  dot_S1024x1024_S1024x1_S1024x1_1_0_0_1_n_n.rhsIdx_val_of_single rfl j k
/-- The right operand's column is the result's column. -/
theorem rhs_col (j : S1024x1.Idx) (k : dot_S1024x1024_S1024x1_S1024x1_1_0_0_1_n_n.contr.Idx) :
    (dot_S1024x1024_S1024x1_S1024x1_1_0_0_1_n_n.rhsIdx j k 1).val = (j 1).val := by
  unfold DotDims.rhsIdx
  rw [dif_neg (show ¬(1 : Fin S1024x1.rank) ∈ dot_S1024x1024_S1024x1_S1024x1_1_0_0_1_n_n.rhsBatch by decide),
    dif_pos (show (1 : Fin S1024x1.rank) ∈ dot_S1024x1024_S1024x1_S1024x1_1_0_0_1_n_n.rhsNonContracting by decide)]
  rfl

/-- A `[1024, 1024]` matrix times a `[1024, 1]` column into a zero accumulator: entry `p` of the result is row `p` of
    the matrix against the column, a sum over the 1024 contracted positions. -/
theorem matvec_apply {φ₁ φ₂ : FTy} (A : FVec Ideal S1024x1024 φ₁) (v : FVec Ideal S1024x1 φ₂) (p : Fin 1024) :
    matmul dot_S1024x1024_S1024x1_S1024x1_1_0_0_1_n_n none A v (constant (F := Ideal) S1024x1 .f32 0x00000000#32) (ix2 p (0 : Fin 1))
      = ∑ k : Fin 1024, A (ix2 p k) * v (ix2 k (0 : Fin 1)) := by
  simp only [matmul]
  rw [Ideal.matmul_constant_zero_apply, ← Equiv.sum_comp (contrEquiv1 dot_S1024x1024_S1024x1_S1024x1_1_0_0_1_n_n 1024 rfl rfl).symm]
  refine Finset.sum_congr rfl fun k _ => ?_
  have hk := contrEquiv1_symm_val dot_S1024x1024_S1024x1_S1024x1_1_0_0_1_n_n 1024 rfl rfl k
  have el : dot_S1024x1024_S1024x1_S1024x1_1_0_0_1_n_n.lhsIdx (ix2 p (0 : Fin 1)) ((contrEquiv1 dot_S1024x1024_S1024x1_S1024x1_1_0_0_1_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1_S1024x1_1_0_0_1_n_n.rhsIdx (ix2 p (0 : Fin 1)) ((contrEquiv1 dot_S1024x1024_S1024x1_S1024x1_1_0_0_1_n_n 1024 rfl rfl).symm k) = ix2 k (0 : Fin 1) :=
    funext fun a => Fin.ext (by
      match a with
      | ⟨0, _⟩ => exact (rhs_row _ _).trans hk
      | ⟨1, _⟩ => exact rhs_col _ _)
  rw [el, er]

/-! ## The stored value at an index -/

/-- What the body stores at `(0, p, q)`, from its four loaded blocks. -/
theorem pay_apply (w : Vec Ideal S1x1024x1024 .f32) (x g : Vec Ideal S1x1024x1 .f32) (xt : Vec Ideal S1x1x1024 .f32)
    (p q : Fin 1024) :
    k0_pay1 (F := Ideal) w x g xt (ix3 (0 : Fin 1) p q)
      = w (ix3 (0 : Fin 1) p q)
        - ((∑ k : Fin 1024, w (ix3 (0 : Fin 1) p k) * x (ix3 (0 : Fin 1) k (0 : Fin 1)))
            + rate * g (ix3 (0 : Fin 1) p (0 : Fin 1))) * xt (ix3 (0 : Fin 1) (0 : Fin 1) q) := by
  unfold k0_pay1
  rw [shapeCast_ab_1ab_apply, subf_apply, mulf_apply, broadcastTo_a1_ab_apply, broadcastTo_1b_ab_apply, addf_apply,
    mulf_apply, broadcast_apply, matvec_apply]
  simp only [truncf_apply, shapeCast_1ab_ab_apply]
  rfl

end Cert.WeightUpdate.Body

end
-- ==== Proof.Blocks.lean ====
/-
  From the blocks to the array. The launch runs the body once per batch: grid point `t` fetches, from each of its
  four input arrays, the block with batch coordinate `t` and every other coordinate whole — the `[1, 1024, 1024]` slab
  `W_t`, the columns `x_t` and `g_t`, and the row `xt_t` of the array the host makes before the launch by swapping
  the last two axes of `x`, so that `xt(t, 0, q) = x(t, q, 0)` — and writes back block `t` of the result.

  So what point `t` writes back is block `t` of the updated weights `upd W x g` (the body's stored value read at an
  index, with each block entry read off its array); the 64 blocks are the 64 batches, which cover the result array;
  hence the result array ends holding `upd W x g`.
-/
import proofs.«171487_j14035953124009_1_alg».proof.Proof.Gen.KernelIdeal.Value
import proofs.«171487_j14035953124009_1_alg».proof.Proof.Payload
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.WeightUpdate.Kernel

open Cert.KernelIdeal Cert.KernelIdeal.Gen Cert.KernelIdeal.Value
open Cert.WeightUpdate Cert.WeightUpdate.Body

variable (m : (ℓ : Loc nD τ sig) → Buf (Elt Ideal) ℓ) (ρ : Dev nD → PrngReg)

theorem hz : (![0, 0, 0] : Fin 3 → Nat) = fun _ => 0 := funext fun a => by fin_cases a <;> rfl

/-- The batch grid point `t` works on: the grid has one point per batch. -/
abbrev batch (t : Fin cfg0.N) : Fin 64 := t.cast N_0

/-- Every window's block index at point `t` is `(t, 0, 0)`: the batch coordinate moves with the grid, the other two
    axes are taken whole. Decided over the 64 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-! ## The array the host prepares -/

/-- When the launch begins the row window's array is `x` with its last two axes swapped. -/
theorem V_xt (c : Dev nD) :
    (V m c main_v0 : S64x1x1024.Idx → Ideal .f32)
      = transpose S64x1x1024 [0, 2, 1] (m ((c : Thread nD τ).loc main_arg1))
          Facts₀.transposes_S64x1024x1_S64x1x1024_0_2_1 := by
  dsimp only [Gen.V, Gen.hostOps0]; after_results

/-! ## Each block entry, read off its array -/

/-- Entry `(0, p, q)` of the weights' block at point `t` is `W(t, p, q)`. -/
theorem blk_w (c : Dev nD) (t : Fin cfg0.N) (p q : Fin 1024) :
    (iblk m c 0 t : Vec Ideal S1x1024x1024 .f32) (ix3 (0 : Fin 1) p q)
      = (m ((c : Thread nD τ).loc main_arg0) : S64x1024x1024.Idx → Ideal .f32) (ix3 (batch t) p q) := by
  obtain ⟨⟨e0, e1, e2⟩, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 1024 + 1 * q.val = q.val; omega

/-- Entry `(0, k, 0)` of the column `x`'s block at point `t` is `x(t, k, 0)`. -/
theorem blk_x (c : Dev nD) (t : Fin cfg0.N) (k : Fin 1024) :
    (iblk m c 1 t : Vec Ideal S1x1024x1 .f32) (ix3 (0 : Fin 1) k (0 : Fin 1))
      = (m ((c : Thread nD τ).loc main_arg1) : S64x1024x1.Idx → Ideal .f32) (ix3 (batch t) k (0 : Fin 1)) := by
  obtain ⟨-, ⟨e0, e1, e2⟩, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * 0 = t.val; omega
  | ⟨1, _⟩ => show win0_1.index t (1 : Fin 3) * 1024 + 1 * k.val = k.val; omega
  | ⟨2, _⟩ => show win0_1.index t (2 : Fin 3) * 1 + 1 * 0 = 0; omega

/-- Entry `(0, p, 0)` of the column `g`'s block at point `t` is `g(t, p, 0)`. -/
theorem blk_g (c : Dev nD) (t : Fin cfg0.N) (p : Fin 1024) :
    (iblk m c 2 t : Vec Ideal S1x1024x1 .f32) (ix3 (0 : Fin 1) p (0 : Fin 1))
      = (m ((c : Thread nD τ).loc main_arg2) : S64x1024x1.Idx → Ideal .f32) (ix3 (batch t) p (0 : Fin 1)) := by
  obtain ⟨-, -, ⟨e0, e1, e2⟩, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 3) * 1 + 1 * 0 = t.val; omega
  | ⟨1, _⟩ => show win0_2.index t (1 : Fin 3) * 1024 + 1 * p.val = p.val; omega
  | ⟨2, _⟩ => show win0_2.index t (2 : Fin 3) * 1 + 1 * 0 = 0; omega

/-- Entry `(0, 0, q)` of the row's block at point `t` is `x(t, q, 0)`: the row is `x` with its last two axes swapped. -/
theorem blk_xt (c : Dev nD) (t : Fin cfg0.N) (q : Fin 1024) :
    (iblk m c 3 t : Vec Ideal S1x1x1024 .f32) (ix3 (0 : Fin 1) (0 : Fin 1) q)
      = (m ((c : Thread nD τ).loc main_arg1) : S64x1024x1.Idx → Ideal .f32) (ix3 (batch t) q (0 : Fin 1)) := by
  obtain ⟨-, -, -, ⟨e0, e1, e2⟩, -⟩ := idx_facts t
  have he : ((cfg0.win 3).blk t).view.emb (ix3 (0 : Fin 1) (0 : Fin 1) q)
      = (ix3 (batch t) (0 : Fin 1) q : S64x1x1024.Idx) := funext fun a => Fin.ext (by
    match a with
    | ⟨0, _⟩ => show win0_3.index t (0 : Fin 3) * 1 + 1 * 0 = t.val; omega
    | ⟨1, _⟩ => show win0_3.index t (1 : Fin 3) * 1 + 1 * 0 = 0; omega
    | ⟨2, _⟩ => show win0_3.index t (2 : Fin 3) * 1024 + 1 * q.val = q.val; omega)
  unfold iblk
  rw [View.read_apply]
  show V m c main_v0 _ = _
  rw [V_xt]
  exact (congrArg _ he).trans
    (transpose_ix3_021_apply (m ((c : Thread nD τ).loc main_arg1)) Facts₀.transposes_S64x1024x1_S64x1x1024_0_2_1 (batch t)
      (0 : Fin 1) q)

/-- Entry `(0, p, q)` of the result's block at point `t` sits at `(t, p, q)` of the result array. -/
theorem emb_out (t : Fin cfg0.N) (p q : Fin 1024) :
    ((cfg0.win 4).blk t).view.emb (ix3 (0 : Fin 1) p q) = (ix3 (batch t) p q : S64x1024x1024.Idx) := by
  obtain ⟨-, -, -, -, e0, e1, e2⟩ := idx_facts t
  refine funext fun a => Fin.ext ?_
  match a with
  | ⟨0, _⟩ => show win0_4.index t (0 : Fin 3) * 1 + 1 * 0 = t.val; omega
  | ⟨1, _⟩ => show win0_4.index t (1 : Fin 3) * 1024 + 1 * p.val = p.val; omega
  | ⟨2, _⟩ => show win0_4.index t (2 : Fin 3) * 1024 + 1 * q.val = q.val; omega

/-! ## What a point writes back -/

/-- At every entry of the block, the body's stored value over the point's four blocks is the updated weights at the
    entry's place in the result array. -/
theorem point_eq (c : Dev nD) (t : Fin cfg0.N) (y : S1x1024x1024.Idx) :
    k0_pay1 (F := Ideal) (iblk m c 0 t) (iblk m c 1 t) (iblk m c 2 t) (iblk m c 3 t) y
      = upd (m ((c : Thread nD τ).loc main_arg0)) (m ((c : Thread nD τ).loc main_arg1)) (m ((c : Thread nD τ).loc main_arg2))
          (((cfg0.win 4).blk t).view.emb y) := by
  obtain ⟨u, p, q, rfl⟩ : ∃ (u : Fin 1) (p q : Fin 1024), y = ix3 u p q := ⟨y 0, y 1, y 2, eq_ix3 y⟩
  obtain rfl : u = 0 := Subsingleton.elim _ _
  refine (pay_apply (iblk m c 0 t) (iblk m c 1 t) (iblk m c 2 t) (iblk m c 3 t) p q).trans ?_
  rw [emb_out t p q, blk_w m c t p q, blk_g m c t p, blk_xt m c t q]
  simp only [blk_w m c t p, blk_x m c t]
  rfl

/-- WHAT POINT `t` WRITES BACK is block `t` of the updated weights. -/
theorem flushed_eq (c : Dev nD) (t : Fin cfg0.N) :
    (dats m 0 c).flushed 4 t = ((cfg0.win 4).blk t).view.read (Elt Ideal)
      (upd (m ((c : Thread nD τ).loc main_arg0)) (m ((c : Thread nD τ).loc main_arg1)) (m ((c : Thread nD τ).loc main_arg2))) := by
  rw [Value.flushed4]
  unfold out0_4
  rw [View.canon_unit_zero hz]
  simp only [View.ld_unit_zero (S := S1x1024x1024) hz, View.ld_unit_zero (S := S1x1024x1) hz,
    View.ld_unit_zero (S := S1x1x1024) hz]
  funext j
  exact point_eq m c t j

/-! ## The blocks cover the result -/

/-- An index of the result is in point `t`'s block iff each coordinate is in the block's range on its axis. -/
theorem mem_blk (t : Fin cfg0.N) (i : S64x1024x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v1).slice (win0_4.rect t)).set ↔ _
  rw [View.set_slice_whole, Rect.mem_set_unit]
  exact Iff.rfl

/-- Every index `(b, r, q)` of the result lies in the block of the point that works on batch `b`. -/
theorem cover (i : S64x1024x1024.Idx) :
    ∃ t : Fin cfg0.N, (cfg0.win 4).flush t = true ∧ i ∈ ((cfg0.win 4).blk t).view.set := by
  obtain ⟨-, -, -, -, e0, e1, e2⟩ := idx_facts ((i 0).cast N_0.symm)
  have ht : (((i 0).cast N_0.symm : Fin cfg0.N) : ℕ) = (i 0).val := rfl
  have h1 : (i 1).val < 1024 := (i 1).isLt
  have h2 : (i 2).val < 1024 := (i 2).isLt
  refine ⟨(i 0).cast N_0.symm, flush0_4 _, ?_⟩
  rw [mem_blk]
  intro a
  match a with
  | ⟨0, _⟩ =>
    show win0_4.index ((i 0).cast N_0.symm) (0 : Fin 3) * 1 ≤ (i 0).val
      ∧ (i 0).val < win0_4.index ((i 0).cast N_0.symm) (0 : Fin 3) * 1 + 1
    omega
  | ⟨1, _⟩ =>
    show win0_4.index ((i 0).cast N_0.symm) (1 : Fin 3) * 1024 ≤ (i 1).val
      ∧ (i 1).val < win0_4.index ((i 0).cast N_0.symm) (1 : Fin 3) * 1024 + 1024
    omega
  | ⟨2, _⟩ =>
    show win0_4.index ((i 0).cast N_0.symm) (2 : Fin 3) * 1024 ≤ (i 2).val
      ∧ (i 2).val < win0_4.index ((i 0).cast N_0.symm) (2 : Fin 3) * 1024 + 1024
    omega

/-! ## The result array, and the run -/

/-- THE RESULT ARRAY after the run is the updated weights. -/
theorem final (c : Dev nD) : (dats m 0 c).arrAt 4 cfg0.N
    = upd (m ((c : Thread nD τ).loc main_arg0)) (m ((c : Thread nD τ).loc main_arg1)) (m ((c : Thread nD τ).loc main_arg2)) :=
  (dats m 0 c).arrAt_eq_of_cover 4 _ (fun t _ => flushed_eq m c t) (fun i => cover i)

/-- The kernel's run, read: every weakly fair execution ends with the result array at the updated weights of the
    arguments, the arguments unchanged. -/
theorem run : θ_run defs (onTc (τ := τ) (main (F := Ideal))) ⟨m, fun _ => 0, ρ⟩ fun r => ∀ c : Dev nD,
      r.2.mem ((c : Thread nD τ).loc main_v1)
        = upd (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.WeightUpdate.Kernel

end
-- ==== Proof.lean ====
/-
  The weight update `W − (W x + rate · g) xᵀ`, batch by batch, computed two ways that agree on the extended reals.

  For 64 batches, `W_b` a 1024 × 1024 matrix and `x_b`, `g_b` columns of 1024 entries, both programs end with

      upd W x g (b, r, q) = W(b, r, q) − ( Σ_k W(b, r, k) · x(b, k, 0)  +  rate · g(b, r, 0) ) · x(b, q, 0).

  The kernel works one batch per grid point: it multiplies the slab `W_b` by the column `x_b` on the matrix unit into a
  zero accumulator (the narrowing of both operands to bf16 in front of it is the identity on extended reals), adds
  `rate · g_b`, and multiplies the resulting column, spread along the rows, by the row `x_bᵀ` spread down the columns
  — the row being a block of the array the host makes beforehand by swapping the last two axes of `x`. The reference
  forms the same column by a contraction over the 1024 positions and the same outer product by a contraction over an
  axis of extent ONE, a sum with a single term. Both spell the rate by the same f32 word, and combine the pieces in the
  same order, so the two results are one expression: no law of the extended reals beyond the one-term sum is used, and
  the finiteness of the inputs is never needed.

  Proof/Spec.lean states `upd`; Proof/RefIsSpec.lean reads the reference's last stage as `upd`;
  Proof/Payload.lean reads the body's stored value at an index; Proof/Blocks.lean carries it from the 64 blocks to
  the whole result array and states the kernel's run. The three frames: the two kernel programs run, fault-free, with
  their arguments unchanged (the generated frame proofs), and the reference's run with its result dropped. The kernel's
  idealization rewrote no operation, so there is nothing to preserve.
-/
import proofs.«171487_j14035953124009_1_alg».proof.Defs
import proofs.«171487_j14035953124009_1_alg».proof.Proof.Gen.Kernel
import proofs.«171487_j14035953124009_1_alg».proof.Proof.Gen.Kernel.Skeleton
import proofs.«171487_j14035953124009_1_alg».proof.Proof.Gen.Kernel.Launch
import proofs.«171487_j14035953124009_1_alg».proof.Proof.Gen.Kernel.Points
import proofs.«171487_j14035953124009_1_alg».proof.Proof.Gen.Kernel.Frame
import proofs.«171487_j14035953124009_1_alg».proof.Proof.Gen.KernelIdeal
import proofs.«171487_j14035953124009_1_alg».proof.Proof.Gen.KernelIdeal.Skeleton
import proofs.«171487_j14035953124009_1_alg».proof.Proof.Gen.KernelIdeal.Launch
import proofs.«171487_j14035953124009_1_alg».proof.Proof.Gen.KernelIdeal.Points
import proofs.«171487_j14035953124009_1_alg».proof.Proof.Gen.KernelIdeal.Frame
import proofs.«171487_j14035953124009_1_alg».proof.Proof.Gen.ReferenceIdeal
import proofs.«171487_j14035953124009_1_alg».proof.Proof.Gen.KernelIdeal.Value
import proofs.«171487_j14035953124009_1_alg».proof.Proof.Gen.ReferenceIdeal.Run
import proofs.«171487_j14035953124009_1_alg».proof.Proof.Gen.ReferenceIdeal.Read
import proofs.«171487_j14035953124009_1_alg».proof.Proof.Gen.Pre_finite_inputs
import proofs.«171487_j14035953124009_1_alg».proof.Proof.RefIsSpec
import proofs.«171487_j14035953124009_1_alg».proof.Proof.Blocks
import Idealize.ShloMosaic.Adequacy
import Idealize.ShloMosaic.Init

noncomputable section

namespace Cert.Proof

open Idealize.ShloMosaic Idealize.SL.Sem

/-- The kernel as printed runs, fault-free, and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the three arguments, the kernel's result array and the reference's both end at the
    updated weights `upd W x g` of those arguments. -/
theorem algebraic : Cert.algebraic_KernelIdeal_ReferenceIdeal := by
  intro m ρ m' ρ' _ hagree
  refine ⟨_, Cert.WeightUpdate.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.WeightUpdate.Reference.stage_eq_upd,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
